-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x577x768 : Shape := ⟨3, ![64, 577, 768]⟩
abbrev S768x768 : Shape := ⟨2, ![768, 768]⟩
abbrev S768 : Shape := ⟨1, ![768]⟩
abbrev S_ : Shape := ⟨0, ![]⟩

class Facts : Prop where
  bcast_S_S64x577x768 : S_.BroadcastsInDim S64x577x768 (![] : Fin 0 → Fin S64x577x768.rank)
  reducesTo_S64x577x768_S_d0_1_2 : S64x577x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S768 .f32) (main_arg10 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768 .f32) (main_arg5 : FVec F S768 .f32) (main_arg6 : FVec F S768 .f32) (main_arg7 : FVec F S768 .f32) (main_arg8 : FVec F S768 .f32) (main_arg9 : FVec F S768 .f32) (main_arg10 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x577x768 .f32) (main_arg1 : FVec F S768x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S768 .f32) (main_arg9 : FVec F S768 .f32) (main_arg10 : FVec F S768 .f32) : IVec S_ 1 :=
  let main_v0 : FVec F S64x577x768 .f32 := Host.absf main_arg0
  let main_cst : FVec F S_ .f32 := constant S_ .f32 0x7F800000#32
  let main_v1 : FVec F S64x577x768 .f32 := broadcastInDim S64x577x768 ![] bcast_S_S64x577x768 main_cst
  let main_v2 : IVec S64x577x768 1 := cmpf .olt main_v0 main_v1
  let main_c : IVec S_ 1 := constantI S_ 1 1#1
  let main_v3 : IVec S_ 1 := (fun x v => Host.reduce IntOp.andi x v reducesTo_S64x577x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_v13 main_v16
-- ==== Kernel.lean ====
abbrev S64x577x768 : Shape := ⟨3, ![64, 577, 768]⟩
abbrev S768x768 : Shape := ⟨2, ![768, 768]⟩
abbrev S768 : Shape := ⟨1, ![768]⟩
abbrev S36928x768 : Shape := ⟨2, ![36928, 768]⟩
abbrev S1x768 : Shape := ⟨2, ![1, 768]⟩
abbrev S9x768 : Shape := ⟨2, ![9, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 26
  | .vmem => 6
  | .smem => 0
  | _ => 0

abbrev bufTy : (tb : Table) → Fin (tcTables nBuf tb) → BufTy
  | .hbm, ⟨0, _⟩ => ⟨S64x577x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S36928x768, .f32⟩
  | .hbm, ⟨12, _⟩ => ⟨S768x768, .f32⟩
  | .hbm, ⟨13, _⟩ => ⟨S768x768, .bf16⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S9x768, .f32⟩
  | .hbm, ⟨24, _⟩ => ⟨S36928x768, .f32⟩
  | .hbm, ⟨25, _⟩ => ⟨S64x577x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S9x768, .f32⟩
  | .local _ .vmem, ⟨4, _⟩ => ⟨S1024x768, .f32⟩
  | .local _ .vmem, ⟨5, _⟩ => ⟨S1024x768, .f32⟩
  | _, _ => ⟨S64x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x577x768_S36928x768 : S64x577x768.ShapeCasts S36928x768
  transposes_S768x768_S768x768_1_0 : S768x768.Transposes [1, 0] S768x768
  bitsLt_bf16_f32 : FTy.bits .bf16 < FTy.bits .f32
  bcast_S768_S1x768_1 : S768.BroadcastsInDim S1x768 (![1] : Fin 1 → Fin S1x768.rank)
  concatenates_S1x768_S1x768_S1x768_S1x768_S1x768_S1x768_S1x768_S1x768_S1x768_S9x768_d0 : Shape.Concatenates [S1x768, S1x768, S1x768, S1x768, S1x768, S1x768, S1x768, S1x768, S1x768] S9x768 0
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S9x768_S9x768_0_0 : ∀ a, (![0, 0] : Fin 2 → Nat) a + S9x768.size a ≤ S9x768.size a
  h_S9x768 : 0 < S9x768.numel
  shapeCasts_S9x768_S9x768 : S9x768.ShapeCasts S9x768
  slices_S9x768_o0_0_S1x768 : S9x768.Slices ![0, 0] S1x768
  shapeCasts_S1x768_S768 : S1x768.ShapeCasts S768
  slices_S9x768_o1_0_S1x768 : S9x768.Slices ![1, 0] S1x768
  slices_S9x768_o2_0_S1x768 : S9x768.Slices ![2, 0] S1x768
  slices_S9x768_o3_0_S1x768 : S9x768.Slices ![3, 0] S1x768
  slices_S9x768_o4_0_S1x768 : S9x768.Slices ![4, 0] S1x768
  slices_S9x768_o5_0_S1x768 : S9x768.Slices ![5, 0] S1x768
  slices_S9x768_o6_0_S1x768 : S9x768.Slices ![6, 0] S1x768
  slices_S9x768_o7_0_S1x768 : S9x768.Slices ![7, 0] S1x768
  slices_S9x768_o8_0_S1x768 : S9x768.Slices ![8, 0] S1x768
  shapeCasts_S768_S1x768 : S768.ShapeCasts S1x768
  broadcasts_S1x768_S1024x768 : S1x768.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S1024x768_S1024 : S1024x768.Reduces [1] S1024
  shapeCasts_S1024_S1024x1 : S1024.ShapeCasts S1024x1
  broadcasts_S1024x1_S1024x768 : S1024x1.Broadcasts S1024x768
  shapeCasts_S36928x768_S64x577x768 : S36928x768.ShapeCasts S64x577x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x768.size a < S36928x768.size a
  hwx0_0 : ∀ i : grid0.Coords, EltTy.bits .f32 = 32 ∨ (Rect.unit (s := S36928x768) (fun a => cc0_transform_0 i a * S1024x768.size a) (fun a => (Pipeline.Clip.of (cc0_transform_0 i a) (S1024x768.size a) (S36928x768.size a)).extent (S1024x768.size a)) fun a => Pipeline.Clip.inb (Pipeline.Clip.ok_of (hstart0_0 i a))).WholeWords (EltTy.packing .f32)
  hwxs0_0 : ∀ i : grid0.Coords, EltTy.bits .f32 = 32 ∨ (Rect.unit (s := S1024x768) (fun _ => 0) (fun a => (Pipeline.Clip.of (cc0_transform_0 i a) (S1024x768.size a) (S36928x768.size a)).extent (S1024x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x768.size a ≤ S9x768.size a
  hwx0_2 : ∀ i : grid0.Coords, EltTy.bits .f32 = 32 ∨ (Rect.block (s := S9x768) S9x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x768.size a < S36928x768.size a
  hwx0_3 : ∀ i : grid0.Coords, EltTy.bits .f32 = 32 ∨ (Rect.unit (s := S36928x768) (fun a => cc0_transform_3 i a * S1024x768.size a) (fun a => (Pipeline.Clip.of (cc0_transform_3 i a) (S1024x768.size a) (S36928x768.size a)).extent (S1024x768.size a)) fun a => Pipeline.Clip.inb (Pipeline.Clip.ok_of (hstart0_3 i a))).WholeWords (EltTy.packing .f32)
  hwxs0_3 : ∀ i : grid0.Coords, EltTy.bits .f32 = 32 ∨ (Rect.unit (s := S1024x768) (fun _ => 0) (fun a => (Pipeline.Clip.of (cc0_transform_3 i a) (S1024x768.size a) (S36928x768.size a)).extent (S1024x768.size a)) fun a => (Nat.zero_add _).trans_le (Pipeline.Clip.extent_le (Pipeline.Clip.ok_of (hstart0_3 i a)))).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpecClip (Memref.whole main_v0) S1024x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S9x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v13) S1024x768.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x577x768 : Shape := ⟨3, ![64, 577, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S64x577 : Shape := ⟨2, ![64, 577]⟩
abbrev S64x577x1 : Shape := ⟨3, ![64, 577, 1]⟩

abbrev nBuf : Space → Nat
  | .hbm => 67
  | .vmem => 0
  | .smem => 0
  | _ => 0

abbrev bufTy : (tb : Table) → Fin (tcTables nBuf tb) → BufTy
  | .hbm, ⟨0, _⟩ => ⟨S64x577x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S1x1x768, .f32⟩
  | .hbm, ⟨12, _⟩ => ⟨S64x577x768, .f32⟩
  | .hbm, ⟨13, _⟩ => ⟨S64x577x768, .f32⟩
  | .hbm, ⟨14, _⟩ => ⟨S64x577x768, .f32⟩
  | .hbm, ⟨15, _⟩ => ⟨S1x1x768, .f32⟩
  | .hbm, ⟨16, _⟩ => ⟨S64x577x768, .f32⟩
  | .hbm, ⟨17, _⟩ => ⟨S64x577x768, .f32⟩
  | .hbm, ⟨18, _⟩ => ⟨S_, .f32⟩
  | .hbm, ⟨19, _⟩ => ⟨S64x577, .f32⟩
  | .hbm, ⟨20, _⟩ => ⟨S64x577x1, .f32⟩
  | .hbm, ⟨21, _⟩ => ⟨S_, .f32⟩
  | .hbm, ⟨22, _⟩ => ⟨S64x577x1, .f32⟩
  | .hbm, ⟨23, _⟩ => ⟨S64x577x1, .f32⟩
  | .hbm, ⟨24, _⟩ => ⟨S64x577x768, .f32⟩
  | .hbm, ⟨25, _⟩ => ⟨S64x577x768, .f32⟩
  | .hbm, ⟨26, _⟩ => ⟨S64x577x768, .f32⟩
  | .hbm, ⟨27, _⟩ => ⟨S_, .f32⟩
  | .hbm, ⟨28, _⟩ => ⟨S64x577, .f32⟩
  | .hbm, ⟨29, _⟩ => ⟨S64x577x1, .f32⟩
  | .hbm, ⟨30, _⟩ => ⟨S_, .f32⟩
  | .hbm, ⟨31, _⟩ => ⟨S64x577x1, .f32⟩
  | .hbm, ⟨32, _⟩ => ⟨S64x577x1, .f32⟩
  | .hbm, ⟨33, _⟩ => ⟨S64x577x768, .f32⟩
  | .hbm, ⟨34, _⟩ => ⟨S64x577x768, .f32⟩
  | .hbm, ⟨35, _⟩ => ⟨S_, .f32⟩
  | .hbm, ⟨36, _⟩ => ⟨S64x577x1, .f32⟩
  | .hbm, ⟨37, _⟩ => ⟨S64x577x1, .f32⟩
  | .hbm, ⟨38, _⟩ => ⟨S64x577x1, .f32⟩
  | .hbm, ⟨39, _⟩ => ⟨S64x577x768, .f32⟩
  | .hbm, ⟨40, _⟩ => ⟨S64x577x768, .f32⟩
  | .hbm, ⟨41, _⟩ => ⟨S1x1x768, .f32⟩
  | .hbm, ⟨42, _⟩ => ⟨S64x577x768, .f32⟩
  | .hbm, ⟨43, _⟩ => ⟨S64x577x768, .f32⟩
  | .hbm, ⟨44, _⟩ => ⟨S1x1x768, .f32⟩
  | .hbm, ⟨45, _⟩ => ⟨S64x577x768, .f32⟩
  | .hbm, ⟨46, _⟩ => ⟨S64x577x768, .f32⟩
  | .hbm, ⟨47, _⟩ => ⟨S64x577x768, .f32⟩
  | .hbm, ⟨48, _⟩ => ⟨S1x1x768, .f32⟩
  | .hbm, ⟨49, _⟩ => ⟨S64x577x768, .f32⟩
  | .hbm, ⟨50, _⟩ => ⟨S64x577x768, .f32⟩
  | .hbm, ⟨51, _⟩ => ⟨S_, .f32⟩
  | .hbm, ⟨52, _⟩ => ⟨S64x577x768, .f32⟩
  | .hbm, ⟨53, _⟩ => ⟨S64x577x768, .i1⟩
  | .hbm, ⟨54, _⟩ => ⟨S1x1x768, .f32⟩
  | .hbm, ⟨55, _⟩ => ⟨S64x577x768, .f32⟩
  | .hbm, ⟨56, _⟩ => ⟨S64x577x768, .f32⟩
  | .hbm, ⟨57, _⟩ => ⟨S64x577x768, .f32⟩
  | .hbm, ⟨58, _⟩ => ⟨S1x1x768, .f32⟩
  | .hbm, ⟨59, _⟩ => ⟨S64x577x768, .f32⟩
  | .hbm, ⟨60, _⟩ => ⟨S64x577x768, .f32⟩
  | .hbm, ⟨61, _⟩ => ⟨S1x1x768, .f32⟩
  | .hbm, ⟨62, _⟩ => ⟨S64x577x768, .f32⟩
  | .hbm, ⟨63, _⟩ => ⟨S64x577x768, .f32⟩
  | .hbm, ⟨64, _⟩ => ⟨S1x1x768, .f32⟩
  | .hbm, ⟨65, _⟩ => ⟨S64x577x768, .f32⟩
  | .hbm, ⟨66, _⟩ => ⟨S64x577x768, .f32⟩
  | _, _ => ⟨S64x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x577x768_0_1_2 : S1x1x768.BroadcastsInDim S64x577x768 (![0, 1, 2] : Fin 3 → Fin S64x577x768.rank)
  reducesTo_S64x577x768_S64x577_d2 : S64x577x768.ReducesTo [2] S64x577
  h_S_ : 0 < S_.numel
  bcast_S64x577_S64x577x1_0_1 : S64x577.BroadcastsInDim S64x577x1 (![0, 1] : Fin 2 → Fin S64x577x1.rank)
  bcast_S_S64x577x1 : S_.BroadcastsInDim S64x577x1 (![] : Fin 0 → Fin S64x577x1.rank)
  bcast_S64x577x1_S64x577x768_0_1_2 : S64x577x1.BroadcastsInDim S64x577x768 (![0, 1, 2] : Fin 3 → Fin S64x577x768.rank)
  bcast_S_S64x577x768 : S_.BroadcastsInDim S64x577x768 (![] : Fin 0 → Fin S64x577x768.rank)
  dot_S64x577x768_S768x768_S64x577x768_2_1_01_0_n_n_wf : DotDims.WF S64x577x768 S768x768 S64x577x768 [2] [1] [0, 1] [0] [] []

variable [Facts₀]

def dot_S64x577x768_S768x768_S64x577x768_2_1_01_0_n_n : DotDims S64x577x768 S768x768 S64x577x768 where
  lhsContracting := [2]
  rhsContracting := [1]
  lhsNonContracting := [0, 1]
  rhsNonContracting := [0]
  lhsBatch := []
  rhsBatch := []
  wf := dot_S64x577x768_S768x768_S64x577x768_2_1_01_0_n_n_wf

class Facts : Prop extends Facts₀ where

variable [Facts]
-- ==== Proof.KernelAround.lean ====
/-
  @main of the kernel as printed around its one region.  Thirteen host operations come before the region: the flattening of
  the activations [64, 577, 768] → [36928, 768], the transpose of the weight and its change of format, nine
  broadcasts [768] → [1, 768] of the per-channel vectors and their concatenation into one [9, 768] array.  One comes
  after it: the reshape of the result back to [64, 577, 768].  Stated here: the contents every buffer holds when the
  region is entered (the fold of the thirteen operations over the launch memory), that @main is those operations, the
  region and the last reshape in that order, that the last reshape touches no array the region stages and allocates
  nothing, and that none of the fourteen operations writes any of the eleven argument arrays.
-/
import proofs.«124724_j8117488190190_2_alg».proof.Proof.Gen.Kernel.Launch
import proofs.«124724_j8117488190190_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What each buffer of core `c` holds when the region is entered: the launch memory after the thirteen host
    operations that precede the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- None of the operations before the region allocates a buffer. -/
theorem before_fresh : (hostOps0 : List (HloOp τ sig (Elt F))).Forall fun op => op.fresh = ∅ := by
  simp only [List.Forall]; repeat' constructor
/-- Nor does the reshape after it. -/
theorem after_fresh : (hostOps1 : List (HloOp τ sig (Elt F))).Forall fun op => op.fresh = ∅ := by
  simp only [List.Forall]; repeat' constructor

/-- @main is the operations before the region, the region, and the reshape after it: it reduces to the region
    continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the region touches only the region's arrays and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- It writes its own result buffer only, which is none of the four arrays the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)
/-- The one buffer it writes is the reshaped result. -/
theorem tail_writes : ∀ ops ∈ ([hostOps1] : List (List (HloOp τ sig (Elt F)))), ∀ op ∈ ops,
    ∀ b : Ref sig .tc, Proc.devRef .tc b ∈ op.writes → b ∈ ({main_v14} : Finset (Ref sig .tc)) := by
  intro ops hops op hop
  simp only [List.mem_cons, List.mem_nil_iff, or_false] at hops
  rcases hops with rfl
  · simp only [hostOps1, List.mem_cons, List.mem_nil_iff, or_false] at hop
    rcases hop with rfl
    intro b hb
    simp only [StableHlo.reshape_writes, Finset.mem_singleton] at hb
    exact Finset.mem_singleton.mpr (Proc.devRef_injective (τ := τ) _ hb)

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

end Cert.Kernel.Around

end
-- ==== Proof.KernelBody.lean ====
/-
  One run of the kernel body on whole staging buffers.  The body reads the whole [1024, 768] tile of activations,
  the whole [9, 768] table of per-channel vectors and the whole [768, 768] weight, and overwrites the whole
  [1024, 768] result tile with one value computed from the three: the shifted tile times the weight plus the bias,
  normalised along each row (mean, variance, reciprocal square root), scaled and shifted per channel, added to the
  tile itself, passed through the two-slope unit and the final per-channel affine map.  Stated here: that value as one
  function `tile` of the three buffers' contents, and that the body, run on buffers holding any contents, terminates
  leaving the three inputs as they were and the result buffer at `tile` of them.  Nothing else is touched.
-/
import proofs.«124724_j8117488190190_2_alg».proof.Proof.KernelAround
import proofs.«124724_j8117488190190_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body reads and writes through. -/
abbrev rTile : Rect S1024x768 := Rect.unit (s := S1024x768) ![0, 0] S1024x768.size inb_S1024x768_S1024x768_0_0
abbrev rVecs : Rect S9x768 := Rect.unit (s := S9x768) ![0, 0] S9x768.size inb_S9x768_S9x768_0_0
abbrev rWeight : Rect S768x768 := Rect.unit (s := S768x768) ![0, 0] S768x768.size inb_S768x768_S768x768_0_0

/-- The value the body stores, from what it loaded: the activations `a`, the nine per-channel vectors `p`, the
    weight `w`. -/
def stored (a : Vec F S1024x768 .f32) (p : Vec F S9x768 .f32) (w : Vec F S768x768 .bf16) : Vec F S1024x768 .f32 :=
  k0_pay1 (k0_pay2 a) (k0_pay4 p) (k0_pay5 p) (k0_pay6 p) (k0_pay7 p) (k0_pay8 p) (k0_pay9 p) (k0_pay10 p)
    (k0_pay13 a p w) (k0_pay14 a p w)

/-- The result buffer after the body, from the contents of the three input buffers: its one store, through the
    whole-buffer rectangle, of `stored` of the three whole-buffer loads. -/
def tile (x0 : Vec F S1024x768 .f32) (x1 : Vec F S768x768 .bf16) (x2 : Vec F S9x768 .f32) : Vec F S1024x768 .f32 :=
  View.canon [⟨rTile, stored (View.ld x0 rTile) (View.ld x2 rVecs) (View.ld x1 rWeight)⟩]

/-- The one store covers the result buffer. -/
theorem tile_cover (p0 : Vec F S1024x768 .f32) (y : S1024x768.Idx) :
    ∃ pc ∈ ([⟨rTile, p0⟩] : List (View.Piece (Elt F) S1024x768 .f32)), y ∈ pc.1.set :=
  View.cover_of_tiled [⟨rTile, p0⟩] S1024x768.size (by rfl) y

set_option maxHeartbeats 1000000 in
/-- The body on whole staging buffers: the inputs' at contents `x0`, `x1`, `x2` and the result's at anything.  It
    runs to the continuation with the inputs' as they were and the result's at `tile x0 x1 x2`. -/
theorem sound_kernel (c : Dev nD) (E : Set ℕ) (i : grid0.Coords)
    (arg1 : Memref sig .tc .vmem S1024x768 .f32) (harg1 : arg1.IsWhole) (arg2 : Memref sig .tc .vmem S768x768 .bf16) (harg2 : arg2.IsWhole)
    (arg3 : Memref sig .tc .vmem S9x768 .f32) (harg3 : arg3.IsWhole) (arg4 : Memref sig .tc .vmem S1024x768 .f32) (harg4 : arg4.IsWhole)
    (x0 : Vec F S1024x768 .f32) (x1 : Vec F S768x768 .bf16) (x2 : Vec F S9x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (tile_cover _)

end Cert.Kernel.Body

end
-- ==== Proof.KernelFrame.lean ====
/-
  The frame of the kernel as printed: every weakly fair execution of @main terminates without a fault and leaves the eleven
  argument arrays as they were.  Nothing is said here of what the result holds, so the proof data are relational and
  say nothing of the staging buffers' contents: whatever the four staging buffers hold when the body is called, the
  body (three whole loads, a whole store) runs and leaves them holding something.  The launch of the region's 37
  points, the clipped transfers of the last, overhanging tile and the host operations around the region are the
  library's; the arguments are then read off its conclusion: no array the region stages is an argument, no operation
  before or after the region writes one.
-/
import proofs.«124724_j8117488190190_2_alg».proof.Proof.KernelBody

set_option maxRecDepth 16384

noncomputable section

namespace Cert.Kernel.RFrame

open Cert.Kernel Cert.Kernel.Gen Cert.Kernel.Around Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; any contents
    may follow any in a staging buffer; the invariant is the scoped rest and the generator register, untouched;
    nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`: the four current staging buffers at contents `Y`, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3))

/-- and what it returns: each at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X))

/-- The body at any point, on any contents: the invariant and the core's dues pass through unread. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (tile (Y 0) (Y 1) (Y 2)); isplitr; · ipureintro; trivial
    iexact H3

/-- The library's obligation for relational proof data, at every point. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- Every weakly fair execution of @main terminates, and every buffer that is neither an array of the region nor the
    reshaped result ends as the region found it. -/
theorem run_main : θ_run defs (onTc (τ := τ) (main (F := F))) (s₀ m ρ)
    (Pipeline.RDat.FramePostR cfg0 (rdat m) {main_v14} (fun c b => V0 m c (Proc.devRef .tc b))) :=
  Pipeline.RDat.θ_run_frame_around_T cfgs (0 : Fin 1) launch0 defs₀ Variants.none (rdat m) {main_v14} m ρ main
    (hbody := body_obligation m) (hshare := fun c => (rdat m c).share_full fun _ => rfl)
    (howed := fun _ _ => rfl) (V₀ := V0 m) (opss := [hostOps1]) (hsub := tail_sub) (hfresh := tail_fresh) (hkeep := tail_keeps)
    (hT := tail_writes) (hmain := hmain m Variants.none) (hA := fun _ _ => rfl) (hΦ := fun _ _ => rfl)

/-- An argument array is neither staged by the region nor written after it. -/
theorem arg_mem (b : Ref sig .tc) (h1 : b ∈ Pipeline.restRefs sig spec0) (h2 : b ≠ main_v14) :
    b ∈ Pipeline.restRefs sig spec0 \ ({main_v14} : Finset (Ref sig .tc)) :=
  Finset.mem_sdiff.mpr ⟨h1, fun h => h2 (Finset.mem_singleton.mp h)⟩

/-- The frame: @main terminates without a fault and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (arg_mem main_arg0 (Pipeline.mem_restRefs_of main_arg0 (by decide) (by decide)) (by decide))).trans (V_main_arg0 m c),
      ((h c).2 main_arg1 (arg_mem main_arg1 (Pipeline.mem_restRefs_of main_arg1 (by decide) (by decide)) (by decide))).trans (V_main_arg1 m c),
      ((h c).2 main_arg2 (arg_mem main_arg2 (Pipeline.mem_restRefs_of main_arg2 (by decide) (by decide)) (by decide))).trans (V_main_arg2 m c),
      ((h c).2 main_arg3 (arg_mem main_arg3 (Pipeline.mem_restRefs_of main_arg3 (by decide) (by decide)) (by decide))).trans (V_main_arg3 m c),
      ((h c).2 main_arg4 (arg_mem main_arg4 (Pipeline.mem_restRefs_of main_arg4 (by decide) (by decide)) (by decide))).trans (V_main_arg4 m c),
      ((h c).2 main_arg5 (arg_mem main_arg5 (Pipeline.mem_restRefs_of main_arg5 (by decide) (by decide)) (by decide))).trans (V_main_arg5 m c),
      ((h c).2 main_arg6 (arg_mem main_arg6 (Pipeline.mem_restRefs_of main_arg6 (by decide) (by decide)) (by decide))).trans (V_main_arg6 m c),
      ((h c).2 main_arg7 (arg_mem main_arg7 (Pipeline.mem_restRefs_of main_arg7 (by decide) (by decide)) (by decide))).trans (V_main_arg7 m c),
      ((h c).2 main_arg8 (arg_mem main_arg8 (Pipeline.mem_restRefs_of main_arg8 (by decide) (by decide)) (by decide))).trans (V_main_arg8 m c),
      ((h c).2 main_arg9 (arg_mem main_arg9 (Pipeline.mem_restRefs_of main_arg9 (by decide) (by decide)) (by decide))).trans (V_main_arg9 m c),
      ((h c).2 main_arg10 (arg_mem main_arg10 (Pipeline.mem_restRefs_of main_arg10 (by decide) (by decide)) (by decide))).trans (V_main_arg10 m c)⟩) (run_main m ρ)

end Cert.Kernel.RFrame

end
-- ==== Proof.IdealAround.lean ====
/-
  @main of the idealized kernel around its one region.  Thirteen host operations come before the region: the flattening of
  the activations [64, 577, 768] → [36928, 768], the transpose of the weight and its change of format, nine
  broadcasts [768] → [1, 768] of the per-channel vectors and their concatenation into one [9, 768] array.  One comes
  after it: the reshape of the result back to [64, 577, 768].  Stated here: the contents every buffer holds when the
  region is entered (the fold of the thirteen operations over the launch memory), that @main is those operations, the
  region and the last reshape in that order, that the last reshape touches no array the region stages and allocates
  nothing, and that none of the fourteen operations writes any of the eleven argument arrays.
-/
import proofs.«124724_j8117488190190_2_alg».proof.Proof.Gen.KernelIdeal.Launch
import proofs.«124724_j8117488190190_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What each buffer of core `c` holds when the region is entered: the launch memory after the thirteen host
    operations that precede the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- None of the operations before the region allocates a buffer. -/
theorem before_fresh : (hostOps0 : List (HloOp τ sig (Elt F))).Forall fun op => op.fresh = ∅ := by
  simp only [List.Forall]; repeat' constructor
/-- Nor does the reshape after it. -/
theorem after_fresh : (hostOps1 : List (HloOp τ sig (Elt F))).Forall fun op => op.fresh = ∅ := by
  simp only [List.Forall]; repeat' constructor

/-- @main is the operations before the region, the region, and the reshape after it: it reduces to the region
    continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the region touches only the region's arrays and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- It writes its own result buffer only, which is none of the four arrays the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)
/-- The one buffer it writes is the reshaped result. -/
theorem tail_writes : ∀ ops ∈ ([hostOps1] : List (List (HloOp τ sig (Elt F)))), ∀ op ∈ ops,
    ∀ b : Ref sig .tc, Proc.devRef .tc b ∈ op.writes → b ∈ ({main_v14} : Finset (Ref sig .tc)) := by
  intro ops hops op hop
  simp only [List.mem_cons, List.mem_nil_iff, or_false] at hops
  rcases hops with rfl
  · simp only [hostOps1, List.mem_cons, List.mem_nil_iff, or_false] at hop
    rcases hop with rfl
    intro b hb
    simp only [StableHlo.reshape_writes, Finset.mem_singleton] at hb
    exact Finset.mem_singleton.mpr (Proc.devRef_injective (τ := τ) _ hb)

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

end Cert.KernelIdeal.Around

end
-- ==== Proof.IdealBody.lean ====
/-
  One run of the kernel body on whole staging buffers.  The body reads the whole [1024, 768] tile of activations,
  the whole [9, 768] table of per-channel vectors and the whole [768, 768] weight, and overwrites the whole
  [1024, 768] result tile with one value computed from the three: the shifted tile times the weight plus the bias,
  normalised along each row (mean, variance, reciprocal square root), scaled and shifted per channel, added to the
  tile itself, passed through the two-slope unit and the final per-channel affine map.  Stated here: that value as one
  function `tile` of the three buffers' contents, and that the body, run on buffers holding any contents, terminates
  leaving the three inputs as they were and the result buffer at `tile` of them.  Nothing else is touched.
-/
import proofs.«124724_j8117488190190_2_alg».proof.Proof.IdealAround
import proofs.«124724_j8117488190190_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body reads and writes through. -/
abbrev rTile : Rect S1024x768 := Rect.unit (s := S1024x768) ![0, 0] S1024x768.size inb_S1024x768_S1024x768_0_0
abbrev rVecs : Rect S9x768 := Rect.unit (s := S9x768) ![0, 0] S9x768.size inb_S9x768_S9x768_0_0
abbrev rWeight : Rect S768x768 := Rect.unit (s := S768x768) ![0, 0] S768x768.size inb_S768x768_S768x768_0_0

/-- The value the body stores, from what it loaded: the activations `a`, the nine per-channel vectors `p`, the
    weight `w`. -/
def stored (a : Vec F S1024x768 .f32) (p : Vec F S9x768 .f32) (w : Vec F S768x768 .bf16) : Vec F S1024x768 .f32 :=
  k0_pay1 (k0_pay2 a) (k0_pay4 p) (k0_pay5 p) (k0_pay6 p) (k0_pay7 p) (k0_pay8 p) (k0_pay9 p) (k0_pay10 p)
    (k0_pay13 a p w) (k0_pay14 a p w)

/-- The result buffer after the body, from the contents of the three input buffers: its one store, through the
    whole-buffer rectangle, of `stored` of the three whole-buffer loads. -/
def tile (x0 : Vec F S1024x768 .f32) (x1 : Vec F S768x768 .bf16) (x2 : Vec F S9x768 .f32) : Vec F S1024x768 .f32 :=
  View.canon [⟨rTile, stored (View.ld x0 rTile) (View.ld x2 rVecs) (View.ld x1 rWeight)⟩]

/-- The one store covers the result buffer. -/
theorem tile_cover (p0 : Vec F S1024x768 .f32) (y : S1024x768.Idx) :
    ∃ pc ∈ ([⟨rTile, p0⟩] : List (View.Piece (Elt F) S1024x768 .f32)), y ∈ pc.1.set :=
  View.cover_of_tiled [⟨rTile, p0⟩] S1024x768.size (by rfl) y

set_option maxHeartbeats 1000000 in
/-- The body on whole staging buffers: the inputs' at contents `x0`, `x1`, `x2` and the result's at anything.  It
    runs to the continuation with the inputs' as they were and the result's at `tile x0 x1 x2`. -/
theorem sound_kernel (c : Dev nD) (E : Set ℕ) (i : grid0.Coords)
    (arg1 : Memref sig .tc .vmem S1024x768 .f32) (harg1 : arg1.IsWhole) (arg2 : Memref sig .tc .vmem S768x768 .bf16) (harg2 : arg2.IsWhole)
    (arg3 : Memref sig .tc .vmem S9x768 .f32) (harg3 : arg3.IsWhole) (arg4 : Memref sig .tc .vmem S1024x768 .f32) (harg4 : arg4.IsWhole)
    (x0 : Vec F S1024x768 .f32) (x1 : Vec F S768x768 .bf16) (x2 : Vec F S9x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (tile_cover _)

end Cert.KernelIdeal.Body

end
-- ==== Proof.Spec.lean ====
/-
  The mathematics both programs compute, one row at a time.  A row `a` of 768 activations is shifted by `mv`, sent
  through the weight (`Wt h o` is the weight's entry from input channel `h` to output channel `o`) and shifted by the
  bias `b`; the 768 outputs are centred on their mean and scaled by the reciprocal square root of their variance plus
  a small constant; then, channel by channel: times `g` plus `be`, plus the activation itself, minus `m1`, kept where
  that is at least zero and multiplied by `pa` elsewhere, plus `m2`, times `la`, plus `lm`.  Every operation is the
  exact one on the extended reals; the three float constants stay the words the programs print.  No row depends on
  another.
-/
import Idealize.ShloMosaic.PureOps.Ideal
import Idealize.ShloMosaic.Lib.ValueIdx

noncomputable section

namespace Cert.Spec

open Idealize.ShloMosaic

/-- The number of channels, the small constant under the square root, and zero, as the programs' float words. -/
abbrev channels : EReal := Ideal.ofBits .f32 0x44400000#32
abbrev small : EReal := Ideal.ofBits .f32 0x2B8CBCCC#32
abbrev zeroWord : EReal := Ideal.ofBits .f32 0x00000000#32

/-- The linear layer on one row. -/
def dense (a mv b : Fin 768 → EReal) (Wt : Fin 768 → Fin 768 → EReal) (o : Fin 768) : EReal :=
  (∑ h : Fin 768, (a h + mv h) * Wt h o) + b o

/-- The mean of a row. -/
def mean (y : Fin 768 → EReal) : EReal := Ideal.div (∑ o : Fin 768, y o) channels

/-- A row centred on its mean. -/
def centred (y : Fin 768 → EReal) (o : Fin 768) : EReal := y o - mean y

/-- The reciprocal square root of the row's variance plus the small constant. -/
def scale (y : Fin 768 → EReal) : EReal := Ideal.rsqrt (mean (fun o => centred y o * centred y o) + small)

/-- The value before the two-slope unit. -/
def pre (a : Fin 768 → EReal) (Wt : Fin 768 → Fin 768 → EReal) (b mv g be m1 : Fin 768 → EReal) (o : Fin 768) : EReal :=
  centred (dense a mv b Wt) o * scale (dense a mv b Wt) * g o + be o + a o - m1 o

/-- One entry of the result row. -/
def rowOut (a : Fin 768 → EReal) (Wt : Fin 768 → Fin 768 → EReal) (b mv g be m1 pa m2 la lm : Fin 768 → EReal) (o : Fin 768) : EReal :=
  (Scalar.select (Ideal.cmp .oge (pre a Wt b mv g be m1 o) zeroWord) (pre a Wt b mv g be m1 o) (pa o * pre a Wt b mv g be m1 o) + m2 o) * la o + lm o

end Cert.Spec

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.IdealTile.lean ====
/-
  The value the body stores, read at one entry.  Reading entry (r, o) of the stored tile through the body's
  operations — the row slices of the table of per-channel vectors, the broadcasts of a vector along the rows and of a
  column along the channels, the matrix product as a sum over the 768 input channels, the two sums along a row —
  gives the row function of the specification applied to row `r` of the activations: the entry depends on no other
  row.
-/
import proofs.«124724_j8117488190190_2_alg».proof.Proof.IdealBody
import proofs.«124724_j8117488190190_2_alg».proof.Proof.Spec
import proofs.«124724_j8117488190190_2_alg».proof.Proof.LibMergedAxes
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileAt

open Cert.KernelIdeal Cert.KernelIdeal.Gen Cert.KernelIdeal.Body
open Idealize.ShloMosaic Idealize.ShloMosaic.ValueIdx Idealize.SL.Sem

/-! ## Layout operations of the body's shapes, read at coordinates -/

section Layout
variable {α : Type}

/-- A vector of 768 channels laid as one row and repeated over the 1024 rows reads, at (r, o), the vector at `o`. -/
theorem rowvec_apply (v : S768.Idx → α) (h1 : S768.ShapeCasts S1x768) (h2 : S1x768.Broadcasts S1024x768) (r : Fin 1024) (o : Fin 768) :
    broadcastTo S1024x768 (shapeCast S1x768 v h1) h2 (ix2 r o) = v (ix1 o) :=
  (broadcastTo_1b_ab_apply _ h2 r o).trans (shapeCast_a_1a_apply v h1 0 o)

/-- A column of 1024 row statistics repeated over the 768 channels reads, at (r, o), the column at row `r`. -/
theorem colvec_apply (v : S1024x1.Idx → α) (h2 : S1024x1.Broadcasts S1024x768) (r : Fin 1024) (o : Fin 768) :
    broadcastTo S1024x768 v h2 (ix2 r o) = v (ix2 r (0 : Fin 1)) :=
  Cert.LibMergedAxes.broadcastTo_a1_ab_apply v h2 r o

/-- A vector of 1024 row statistics kept as a column reads, at row `r`, the vector at `r`. -/
theorem column_apply (v : S1024.Idx → α) (h1 : S1024.ShapeCasts S1024x1) (r : Fin 1024) :
    shapeCast S1024x1 v h1 (ix2 r (0 : Fin 1)) = v (ix1 r) :=
  Cert.LibMergedAxes.shapeCast_a_a1_apply v h1 r 0

/-- Row `k` of the table of nine per-channel vectors, cut out and laid as a vector, reads at `o` the table at (k, o). -/
theorem vecrow_apply (off : Nat) (p : S9x768.Idx → α) (hs : S9x768.Slices ![off, 0] S1x768) (hc : S1x768.ShapeCasts S768)
    (k : Fin 9) (hk : k.val = off) (o : Fin 768) :
    shapeCast S768 (extractStridedSlice S1x768 ![off, 0] p hs) hc (ix1 o) = p (ix2 k o) :=
  (shapeCast_1a_a_apply _ hc o).trans (slice2_axis0_apply off p hs (0 : Fin 1) o k (by rw [hk]; rfl))

end Layout

/-- The reciprocal square root of a vector, entry by entry. -/
theorem rsqrt_apply {s : Shape} {φ : FTy} (x : FVec Ideal s φ) (i : s.Idx) : rsqrt x i = Ideal.rsqrt (x i) := rfl

/-! ## The matrix product and the sum along a row -/

theorem lhs_row (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs_inner (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem rhs_inner (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem rhs_col (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The tile-by-weight product into a zero accumulator, at (r, o): the sum over the 768 input channels `k` of the
    tile at (r, k) times the weight at (k, o). -/
theorem matmul_at (x : FVec Ideal S1024x768 .bf16) (y : FVec Ideal S768x768 .bf16) (r : Fin 1024) (o : Fin 768) :
    matmul (F := Ideal) dot_S1024x768_S768x768_S1024x768_1_0_0_1_n_n none x y (constant S1024x768 .f32 0x00000000#32) (ix2 r o)
      = ∑ k : Fin 768, x (ix2 r k) * y (ix2 k o) := by
  simp only [matmul]
  rw [Ideal.matmul_constant_zero_apply, ← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have el : dot_S1024x768_S768x768_S1024x768_1_0_0_1_n_n.lhsIdx (ix2 r o) ((ValueIdx.contrEquiv1 dot_S1024x768_S768x768_S1024x768_1_0_0_1_n_n 768 rfl rfl).symm k) = ix2 r k := funext fun a => Fin.ext (by
    match a with
    | ⟨0, _⟩ => exact lhs_row _ _
    | ⟨1, _⟩ => exact (lhs_inner _ _).trans hk)
  have er : dot_S1024x768_S768x768_S1024x768_1_0_0_1_n_n.rhsIdx (ix2 r o) ((ValueIdx.contrEquiv1 dot_S1024x768_S768x768_S1024x768_1_0_0_1_n_n 768 rfl rfl).symm k) = ix2 k o := funext fun a => Fin.ext (by
    match a with
    | ⟨0, _⟩ => exact (rhs_inner _ _).trans hk
    | ⟨1, _⟩ => exact rhs_col _ _)
  rw [el, er]

/-- The sum of a tile along its rows, at row `r`: the sum over the 768 channels of the tile's entries in that row. -/
theorem rowSum_at (src : FVec Ideal S1024x768 .f32) (h : S1024x768.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ k : Fin 768, src (ix2 r k) :=
  (Ideal.multiReduction_add_single src 0x00000000#32 h hφ hacc (ix1 r)).trans
    (Finset.sum_congr rfl fun k _ => congrArg src (funext fun a => Fin.ext (by match a with | ⟨0, _⟩ => rfl | ⟨1, _⟩ => rfl)))

/-! ## The body's named values at an entry -/

variable (a : FVec Ideal S1024x768 .f32) (p : FVec Ideal S9x768 .f32) (w : FVec Ideal S768x768 .bf16)

theorem pay2_eq : k0_pay2 (F := Ideal) a = a := shapeCast_self a _
theorem pay3_eq : k0_pay3 (F := Ideal) p = p := shapeCast_self p _

/-- Vector 2 of the table. -/
theorem pay4_apply (o : Fin 768) : k0_pay4 (F := Ideal) p (ix1 o) = p (ix2 (2 : Fin 9) o) := by
  unfold k0_pay4; rw [pay3_eq]; exact vecrow_apply 2 p _ _ 2 rfl o
/-- Vector 3 of the table. -/
theorem pay5_apply (o : Fin 768) : k0_pay5 (F := Ideal) p (ix1 o) = p (ix2 (3 : Fin 9) o) := by
  unfold k0_pay5; rw [pay3_eq]; exact vecrow_apply 3 p _ _ 3 rfl o
/-- Vector 4 of the table. -/
theorem pay6_apply (o : Fin 768) : k0_pay6 (F := Ideal) p (ix1 o) = p (ix2 (4 : Fin 9) o) := by
  unfold k0_pay6; rw [pay3_eq]; exact vecrow_apply 4 p _ _ 4 rfl o
/-- Vector 5 of the table. -/
theorem pay7_apply (o : Fin 768) : k0_pay7 (F := Ideal) p (ix1 o) = p (ix2 (5 : Fin 9) o) := by
  unfold k0_pay7; rw [pay3_eq]; exact vecrow_apply 5 p _ _ 5 rfl o
/-- Vector 6 of the table. -/
theorem pay8_apply (o : Fin 768) : k0_pay8 (F := Ideal) p (ix1 o) = p (ix2 (6 : Fin 9) o) := by
  unfold k0_pay8; rw [pay3_eq]; exact vecrow_apply 6 p _ _ 6 rfl o
/-- Vector 7 of the table. -/
theorem pay9_apply (o : Fin 768) : k0_pay9 (F := Ideal) p (ix1 o) = p (ix2 (7 : Fin 9) o) := by
  unfold k0_pay9; rw [pay3_eq]; exact vecrow_apply 7 p _ _ 7 rfl o
/-- Vector 8 of the table. -/
theorem pay10_apply (o : Fin 768) : k0_pay10 (F := Ideal) p (ix1 o) = p (ix2 (8 : Fin 9) o) := by
  unfold k0_pay10; rw [pay3_eq]; exact vecrow_apply 8 p _ _ 8 rfl o

/-- The specification's row arguments, from the tile's row `r`, the weight and the table. -/
abbrev rowA (r : Fin 1024) : Fin 768 → EReal := fun h => a (ix2 r h)
abbrev wt : Fin 768 → Fin 768 → EReal := fun h o => w (ix2 h o)
abbrev vec (k : Fin 9) : Fin 768 → EReal := fun o => p (ix2 k o)

/-- The linear layer at (r, o). -/
theorem pay11_apply (r : Fin 1024) (o : Fin 768) :
    k0_pay11 (F := Ideal) a p w (ix2 r o) = Spec.dense (rowA a r) (vec p 1) (vec p 0) (wt w) o := by
  unfold k0_pay11 Spec.dense
  rw [pay2_eq, pay3_eq]
  simp only [addf_apply, rowvec_apply, matmul_at, truncf_apply, shapeCast_self]
  rw [vecrow_apply 0 p _ _ 0 rfl o]
  refine congrArg (· + _) (Finset.sum_congr rfl fun k _ => ?_)
  rw [vecrow_apply 1 p _ _ 1 rfl k]

/-- The row's mean, kept as a column. -/
theorem pay12_apply (r : Fin 1024) :
    k0_pay12 (F := Ideal) a p w (ix2 r (0 : Fin 1)) = Spec.mean (Spec.dense (rowA a r) (vec p 1) (vec p 0) (wt w)) := by
  unfold k0_pay12 Spec.mean
  simp only [divf_apply, broadcast_apply, column_apply]
  refine congrArg₂ Ideal.div ?_ rfl
  exact (rowSum_at _ _ _ _ r).trans (Finset.sum_congr rfl fun k _ => pay11_apply a p w r k)

/-- The centred linear layer at (r, o). -/
theorem pay13_apply (r : Fin 1024) (o : Fin 768) :
    k0_pay13 (F := Ideal) a p w (ix2 r o) = Spec.centred (Spec.dense (rowA a r) (vec p 1) (vec p 0) (wt w)) o := by
  unfold k0_pay13 Spec.centred
  simp only [subf_apply, colvec_apply]
  rw [pay11_apply, pay12_apply]

/-- The row's variance plus the small constant, kept as a column. -/
theorem pay14_apply (r : Fin 1024) :
    k0_pay14 (F := Ideal) a p w (ix2 r (0 : Fin 1))
      = Spec.mean (fun o => Spec.centred (Spec.dense (rowA a r) (vec p 1) (vec p 0) (wt w)) o * Spec.centred (Spec.dense (rowA a r) (vec p 1) (vec p 0) (wt w)) o) + Spec.small := by
  unfold k0_pay14 Spec.mean
  simp only [addf_apply, divf_apply, broadcast_apply, column_apply]
  refine congrArg₂ (· + ·) (congrArg₂ Ideal.div ?_ rfl) rfl
  refine (rowSum_at _ _ _ _ r).trans (Finset.sum_congr rfl fun k _ => ?_)
  simp only [mulf_apply, subf_apply, colvec_apply]
  rw [pay11_apply, pay12_apply]
  rfl

/-- The stored tile at (r, o) is the specification's row function of row `r`. -/
theorem stored_apply (r : Fin 1024) (o : Fin 768) :
    stored (F := Ideal) a p w (ix2 r o)
      = Spec.rowOut (rowA a r) (wt w) (vec p 0) (vec p 1) (vec p 2) (vec p 3) (vec p 4) (vec p 5) (vec p 6) (vec p 7) (vec p 8) o := by
  unfold stored k0_pay1 Spec.rowOut Spec.pre Spec.scale
  simp only [addf_apply, mulf_apply, subf_apply, select_apply, cmpf_apply, broadcast_apply, rowvec_apply, colvec_apply, rsqrt_apply, pay2_eq]
  rw [pay13_apply, pay14_apply, pay4_apply, pay5_apply, pay6_apply, pay7_apply, pay8_apply, pay9_apply, pay10_apply]
  rfl

end Cert.KernelIdeal.TileAt

end
-- ==== Proof.IdealData.lean ====
/-
  The proof data of the idealized kernel's pipeline and the body's obligation at every grid point.  The grid has 37
  points; point `t` works on rows 1024·t … of the flattened activations.  36928 = 36·1024 + 64, so the last point's
  tile overhangs the array: only its first 64 rows are fetched and only its first 64 rows are written back, and the
  other 960 rows of the staging buffer hold words nothing names.  That is harmless because no entry of the result
  depends on another row: on the rows inside the array the stored tile is the same whatever fills the rest.  So the
  data name, after the body at point `t`, the activations' buffer as its block filled out with zeros, the weight's
  and the vectors' buffers as their (whole, unmoving) blocks, and the result's buffer as the stored tile of those;
  the obligation is met on the rows inside the array, which is all it asks of a clipped window.
-/
import proofs.«124724_j8117488190190_2_alg».proof.Proof.IdealTile

set_option maxRecDepth 16384

noncomputable section

namespace Cert.KernelIdeal.Data

open Cert.KernelIdeal Cert.KernelIdeal.Gen Cert.KernelIdeal.Around Cert.KernelIdeal.Body Cert.KernelIdeal.TileAt
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result buffer is the stored value; no row depends on another -/

theorem zeros2 : (![0, 0] : Fin 2 → Nat) = fun _ => 0 := funext fun a => by fin_cases a <;> rfl

/-- The one whole-buffer store of whole-buffer loads leaves the stored value of the buffers' contents. -/
theorem tile_eq (x0 : Vec Ideal S1024x768 .f32) (x1 : Vec Ideal S768x768 .bf16) (x2 : Vec Ideal S9x768 .f32) :
    tile (F := Ideal) x0 x1 x2 = stored x0 x2 x1 := by
  unfold tile
  rw [View.canon_unit_zero zeros2]
  simp only [View.ld_unit_zero (S := S1024x768) zeros2, View.ld_unit_zero (S := S9x768) zeros2, View.ld_unit_zero (S := S768x768) zeros2]

/-- The result tile at (r, o), by the specification's row function. -/
theorem tile_apply (x0 : Vec Ideal S1024x768 .f32) (x1 : Vec Ideal S768x768 .bf16) (x2 : Vec Ideal S9x768 .f32) (r : Fin 1024) (o : Fin 768) :
    tile (F := Ideal) x0 x1 x2 (ix2 r o)
      = Spec.rowOut (rowA x0 r) (wt x1) (vec x2 0) (vec x2 1) (vec x2 2) (vec x2 3) (vec x2 4) (vec x2 5) (vec x2 6) (vec x2 7) (vec x2 8) o := by
  rw [tile_eq]; exact stored_apply x0 x2 x1 r o

/-- Activation tiles that agree on row `r` give result tiles that agree on row `r`. -/
theorem tile_row_congr (x0 x0' : Vec Ideal S1024x768 .f32) (x1 : Vec Ideal S768x768 .bf16) (x2 : Vec Ideal S9x768 .f32)
    (r : Fin 1024) (h : ∀ k : Fin 768, x0 (ix2 r k) = x0' (ix2 r k)) (o : Fin 768) :
    tile (F := Ideal) x0 x1 x2 (ix2 r o) = tile (F := Ideal) x0' x1 x2 (ix2 r o) := by
  rw [tile_apply, tile_apply]
  have e : rowA x0 r = rowA x0' r := funext h
  rw [e]

/-- The activations' window is never cut along the channels. -/
theorem lanes_whole (i : grid0.Coords) : win0_0.xsize i 1 = 768 := rfl

/-- Whatever fills the rows past the array's end, the result tile is the same on the rows inside the array. -/
theorem tile_agree (i : grid0.Coords) (g : (win0_0.xblock i).Idx → Elt Ideal .f32) (d d' : S1024x768.Idx → Elt Ideal .f32)
    (x1 : Vec Ideal S768x768 .bf16) (x2 : Vec Ideal S9x768 .f32) (y : S1024x768.Idx) (hy : (y 0).val < win0_0.xsize i 0) :
    tile (F := Ideal) (win0_0.fill i d g) x1 x2 y = tile (F := Ideal) (win0_0.fill i d' g) x1 x2 y := by
  obtain ⟨r, o, rfl⟩ : ∃ (r : Fin 1024) (o : Fin 768), y = ix2 r o := ⟨y 0, y 1, eq_ix2 y⟩
  refine tile_row_congr _ _ x1 x2 r (fun k => ?_) o
  have hm : win0_0.moved i (ix2 r k) = true := (win0_0.moved_iff i _).mpr fun a => by
    match a with
    | ⟨0, _⟩ => exact hy
    | ⟨1, _⟩ => show k.val < win0_0.xsize i 1; rw [lanes_whole]; exact k.isLt
  unfold Window.fill; rw [dif_pos hm, dif_pos hm]

/-! ## The proof data -/

/-- Window `w`'s block at point `t`, read off its array as the region finds it: the part inside the array. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The activations' staging buffer at point `t`: the block, zeros past the array's end. -/
def actTile (c : Dev nD) (t : Fin cfg0.N) : S1024x768.Idx → Elt Ideal .f32 :=
  win0_0.fill (grid0.coords t) (fun _ => Scalar.ofBits (F := Ideal) .f32 0#32) (iblk m c 0 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => actTile m c t
    | ⟨1, _⟩ => iblk m c 1 t
    | ⟨2, _⟩ => iblk m c 2 t
    | ⟨3, _⟩ => tile (F := Ideal) (actTile m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = actTile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tile (F := Ideal) (actTile m c t) (iblk m c 1 t) (iblk m c 2 t) := by dsimp only [dats]

/-! ## What the body finds in each current staging buffer -/

/-- The activations' buffer was just fetched: the block on the rows inside the array, `d` elsewhere. -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]; try rfl

/-- The weight's buffer holds the weight, fetched at this point or at the first. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- The vectors' buffer holds the table of vectors likewise. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- The result's buffer holds words nothing names: every point writes it back. -/
theorem before3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t)))))

/-- The rows of the result tile that are written back do not depend on what filled the activations' buffer past the
    array's end. -/
theorem cut_result (c : Dev nD) (t : Fin cfg0.N) (d0 : S1024x768.Idx → Elt Ideal .f32) :
    (cfg0.win 3).cut (cfg0.grid.coords t) (tile (F := Ideal) (win0_0.fill (grid0.coords t) d0 (iblk m c 0 t)) (iblk m c 1 t) (iblk m c 2 t))
      = (cfg0.win 3).cut (cfg0.grid.coords t) (tile (F := Ideal) (actTile m c t) (iblk m c 1 t) (iblk m c 2 t)) := by
  funext j
  exact tile_agree (grid0.coords t) (iblk m c 0 t) d0 _ (iblk m c 1 t) (iblk m c 2 t) (win0_3.xinj (grid0.coords t) j) (j 0).isLt

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2, before3 m c t d3]
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    rw [after0]; unfold actTile
    rw [show (cfg0.win 0).cut (cfg0.grid.coords t) (win0_0.fill (grid0.coords t) (fun _ => Scalar.ofBits (F := Ideal) .f32 0#32) (iblk m c 0 t)) = iblk m c 0 t from win0_0.cut_fill _ _ _]
    iexact H0
  isplitl [H1]; · rw [after1]; iexact H1
  isplitl [H2]; · rw [after2]; iexact H2
  · iexists (tile (F := Ideal) (win0_0.fill (grid0.coords t) d0 (iblk m c 0 t)) (iblk m c 1 t) (iblk m c 2 t))
    rw [after3, (cfg0.win 3).fill_congr_cut (cfg0.grid.coords t) (cut_result m c t d0)]
    iexact H3

/-- The library's obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Data

end
-- ==== Proof.IdealRun.lean ====
/-
  The run of the idealized kernel's @main, read.  The result array of the region [36928, 768] ends holding, at
  (y, o), the specification's row function of row `y` of the flattened activations, the transposed weight and the
  table of vectors as the region finds them: point `t` writes back rows 1024·t … of exactly that (its tile's rows
  inside the array), and the 37 points' blocks — the last one 64 rows — cover the 36928 rows.  The reshape after the
  region then gives the program's result, and no operation of @main writes an argument.
-/
import proofs.«124724_j8117488190190_2_alg».proof.Proof.IdealData

set_option maxRecDepth 16384

noncomputable section

namespace Cert.KernelIdeal.Run

open Cert.KernelIdeal Cert.KernelIdeal.Gen Cert.KernelIdeal.Around Cert.KernelIdeal.Body Cert.KernelIdeal.TileAt Cert.KernelIdeal.Data
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The printed index maps and cuts, decided over the grid -/

/-- Point `t` works on row block `t` of the activations and of the result, all 768 channels; the weight and the
    vectors are one block each; the result's block at point `t` has the rows left before the array's end, at most
    1024. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_3.xsize (grid0.coords t) (0 : Fin 2) = min 1024 (36928 - t.val * 1024)
    ∧ win0_3.xsize (grid0.coords t) (1 : Fin 2) = 768 :=
  (by decide +kernel : ∀ t : Fin grid0.N, _)

/-! ## The whole-array function -/

/-- What the region's result array ends holding, from the flattened activations `X`, the weight `Wt` (input channel
    by output channel) and the table of vectors `P`. -/
def flat (X : S36928x768.Idx → EReal) (Wt : S768x768.Idx → EReal) (P : S9x768.Idx → EReal) : S36928x768.Idx → EReal :=
  fun y => Spec.rowOut (fun h => X (ix2 (⟨(y 0).val, (y 0).isLt⟩ : Fin 36928) h)) (wt Wt) (vec P 0) (vec P 1) (vec P 2) (vec P 3) (vec P 4) (vec P 5)
    (vec P 6) (vec P 7) (vec P 8) (⟨(y 1).val, (y 1).isLt⟩ : Fin 768)

/-! ## The blocks the body reads -/

/-- The weight's block is the weight. -/
theorem weight_blk (c : Dev nD) (t : Fin cfg0.N) (h o : Fin 768) :
    iblk m c 1 t (ix2 h o) = V m c main_v2 (ix2 h o) := by
  obtain ⟨-, -, e2, e3, -⟩ := idx_facts t
  show V m c main_v2 (((cfg0.win 1).blk t).view.emb (ix2 h o)) = V m c main_v2 (ix2 h o)
  refine congrArg _ (funext fun a => Fin.ext ?_)
  match a with
  | ⟨0, _⟩ => show win0_1.index t (0 : Fin 2) * 768 + 1 * h.val = h.val; rw [e2]; omega
  | ⟨1, _⟩ => show win0_1.index t (1 : Fin 2) * 768 + 1 * o.val = o.val; rw [e3]; omega

/-- The vectors' block is the table of vectors. -/
theorem vecs_blk (c : Dev nD) (t : Fin cfg0.N) (k : Fin 9) (o : Fin 768) :
    iblk m c 2 t (ix2 k o) = V m c main_v12 (ix2 k o) := by
  obtain ⟨-, -, -, -, e4, e5, -⟩ := idx_facts t
  show V m c main_v12 (((cfg0.win 2).blk t).view.emb (ix2 k o)) = V m c main_v12 (ix2 k o)
  refine congrArg _ (funext fun a => Fin.ext ?_)
  match a with
  | ⟨0, _⟩ => show win0_2.index t (0 : Fin 2) * 9 + 1 * k.val = k.val; rw [e4]; omega
  | ⟨1, _⟩ => show win0_2.index t (1 : Fin 2) * 768 + 1 * o.val = o.val; rw [e5]; omega

/-- Row `r` of the activations' staging buffer at point `t`, if it is inside the array, is row 1024·t + r of the
    flattened activations. -/
theorem acts_blk (c : Dev nD) (t : Fin cfg0.N) (r : Fin 1024) (h : Fin 768) (hr : r.val < win0_0.xsize (grid0.coords t) 0)
    (y : Fin 36928) (hy : y.val = t.val * 1024 + r.val) :
    actTile m c t (ix2 r h) = V m c main_v0 (ix2 y h) := by
  obtain ⟨e0, e1, -⟩ := idx_facts t
  have hm : win0_0.moved (grid0.coords t) (ix2 r h) = true := (win0_0.moved_iff _ _).mpr fun a => by
    match a with
    | ⟨0, _⟩ => exact hr
    | ⟨1, _⟩ => show h.val < win0_0.xsize (grid0.coords t) 1; rw [lanes_whole]; exact h.isLt
  unfold actTile Window.fill; rw [dif_pos hm]
  show V m c main_v0 (((cfg0.win 0).blk t).view.emb _) = V m c main_v0 (ix2 y h)
  refine congrArg _ (funext fun a => Fin.ext ?_)
  match a with
  | ⟨0, _⟩ => show win0_0.index t (0 : Fin 2) * 1024 + 1 * r.val = y.val; rw [e0, hy]; omega
  | ⟨1, _⟩ => show win0_0.index t (1 : Fin 2) * 768 + 1 * h.val = h.val; rw [e1]; omega

/-! ## What point `t` writes back -/

/-- Point `t` writes back block `t` of the whole-array function of the arrays as the region finds them. -/
theorem flushed3_eq (c : Dev nD) (t : Fin cfg0.N) :
    (dats m 0 c).flushed 3 t = ((cfg0.win 3).blk t).view.read (Elt Ideal) (flat (V m c main_v0) (V m c main_v2) (V m c main_v12)) := by
  obtain ⟨-, -, -, -, -, -, e6, e7, -⟩ := idx_facts t
  show (cfg0.win 3).cut (grid0.coords t) ((dats m 0 c).after 3 t) = _
  rw [after3]
  funext j
  have hj0 : (j 0).val < 1024 := Nat.lt_of_lt_of_le (j 0).isLt (win0_3.xsize_le (grid0.coords t) 0)
  have hj1 : (j 1).val < 768 := Nat.lt_of_lt_of_le (j 1).isLt (win0_3.xsize_le (grid0.coords t) 1)
  have hx : win0_3.xinj (grid0.coords t) j = ix2 (⟨(j 0).val, hj0⟩ : Fin 1024) (⟨(j 1).val, hj1⟩ : Fin 768) :=
    funext fun a => Fin.ext (by match a with | ⟨0, _⟩ => rfl | ⟨1, _⟩ => rfl)
  show tile (F := Ideal) (actTile m c t) (iblk m c 1 t) (iblk m c 2 t) (win0_3.xinj (grid0.coords t) j)
    = flat (V m c main_v0) (V m c main_v2) (V m c main_v12) (((cfg0.win 3).blk t).view.emb j)
  rw [hx, tile_apply]
  unfold flat
  have hrow : (((cfg0.win 3).blk t).view.emb j 0).val = t.val * 1024 + (j 0).val := by
    show win0_3.index t (0 : Fin 2) * 1024 + 1 * (j 0).val = _; rw [e6]; omega
  have hcol : (((cfg0.win 3).blk t).view.emb j 1).val = (j 1).val := by
    show win0_3.index t (1 : Fin 2) * 768 + 1 * (j 1).val = _; rw [e7]; omega
  have ea : rowA (actTile m c t) (⟨(j 0).val, hj0⟩ : Fin 1024)
      = fun h => V m c main_v0 (ix2 (⟨(((cfg0.win 3).blk t).view.emb j 0).val, (((cfg0.win 3).blk t).view.emb j 0).isLt⟩ : Fin 36928) h) :=
    funext fun h => acts_blk m c t _ h (j 0).isLt _ hrow
  have ew : wt (iblk m c 1 t) = wt (V m c main_v2) := funext fun h => funext fun o => weight_blk m c t h o
  have ev : ∀ k : Fin 9, vec (iblk m c 2 t) k = vec (V m c main_v12) k := fun k => funext fun o => vecs_blk m c t k o
  have eo : (⟨(j 1).val, hj1⟩ : Fin 768) = ⟨(((cfg0.win 3).blk t).view.emb j 1).val, (((cfg0.win 3).blk t).view.emb j 1).isLt⟩ :=
    Fin.ext hcol.symm
  rw [ea, ew, ev 0, ev 1, ev 2, ev 3, ev 4, ev 5, ev 6, ev 7, ev 8, eo]

/-! ## The blocks cover the array -/

theorem mem_blk3 (t : Fin cfg0.N) (i : S36928x768.Idx) :
    i ∈ ((cfg0.win 3).blk t).view.set ↔ ∀ a : Fin 2, win0_3.index t a * S1024x768.size a ≤ (i a).val
      ∧ (i a).val < win0_3.index t a * S1024x768.size a + win0_3.xsize (grid0.coords t) a := by
  show i ∈ ((View.whole main_v13).slice (win0_3.rect t)).set ↔ _
  rw [View.set_slice_whole, Rect.mem_set_unit]
  exact Iff.rfl

/-- Row `y` is in the block of point ⌊y / 1024⌋. -/
theorem cover3 (i : S36928x768.Idx) : ∃ t : Fin cfg0.N, (cfg0.win 3).flush t = true ∧ i ∈ ((cfg0.win 3).blk t).view.set := by
  have hi0 : (i 0).val < 36928 := (i 0).isLt
  have hi1 : (i 1).val < 768 := (i 1).isLt
  have hN : cfg0.N = 37 := N_0
  let t : Fin cfg0.N := ⟨(i 0).val / 1024, by rw [hN]; omega⟩
  obtain ⟨-, -, -, -, -, -, e6, e7, e8, e9⟩ := idx_facts t
  refine ⟨t, flush0_3 t, ?_⟩
  rw [mem_blk3]
  have ht : t.val = (i 0).val / 1024 := rfl
  intro a
  match a with
  | ⟨0, _⟩ =>
    show win0_3.index t (0 : Fin 2) * 1024 ≤ (i 0).val ∧ (i 0).val < win0_3.index t (0 : Fin 2) * 1024 + win0_3.xsize (grid0.coords t) (0 : Fin 2)
    rw [e6, e8, ht]; omega
  | ⟨1, _⟩ =>
    show win0_3.index t (1 : Fin 2) * 768 ≤ (i 1).val ∧ (i 1).val < win0_3.index t (1 : Fin 2) * 768 + win0_3.xsize (grid0.coords t) (1 : Fin 2)
    rw [e7, e9]; omega

/-- The region's result array after the run. -/
theorem final3 (c : Dev nD) :
    (dats m 0 c).arrAt 3 cfg0.N = flat (V m c main_v0) (V m c main_v2) (V m c main_v12) :=
  (dats m 0 c).arrAt_eq_of_cover 3 _ (fun t _ => flushed3_eq m c t) cover3

/-! ## The launch -/

set_option backward.isDefEq.respectTransparency.types false in
/-- Every weakly fair execution of @main terminates; every array of the region ends at what the proof data compute
    and every other unscoped buffer as the reshape after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## After the region -/

/-- The reshape after the region does not write argument 0: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region does not write argument 1: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region does not write argument 2: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the region does not write argument 3: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
/-- The reshape after the region does not write argument 4: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c
/-- The reshape after the region does not write argument 5: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c
/-- The reshape after the region does not write argument 6: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c
/-- The reshape after the region does not write argument 7: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c
/-- The reshape after the region does not write argument 8: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c
/-- The reshape after the region does not write argument 9: it ends as launched. -/
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c
/-- The reshape after the region does not write argument 10: it ends as launched. -/
theorem W_main_arg10 (c : Dev nD) :
    Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- The program's result: the region's result array reshaped to [64, 577, 768]. -/
theorem W_result (c : Dev nD) :
    Pipeline.afterTail₀ cfgs (dats m) 0 (V0 m) [hostOps1] c main_v14
      = shapeCast S64x577x768 (flat (V m c main_v0) (V m c main_v2) (V m c main_v12)) shapeCasts_S36928x768_S64x577x768 := by
  unfold Pipeline.afterTail₀
  show StableHlo.after hostOps1 _ (Proc.devRef .tc main_v14) = _
  after_results
  refine congrArg (fun x => shapeCast S64x577x768 x shapeCasts_S36928x768_S64x577x768) ?_
  exact (Pipeline.withArrays_arr spec0 launch0.win.arr_inj c _ _ 3).trans (final3 m c)

/-- The run, read: the result at the reshaped whole-array function, the eleven arguments unchanged. -/
theorem run : θ_run defs (onTc (τ := τ) (main (F := Ideal))) ⟨m, fun _ => 0, ρ⟩ (fun r => ∀ c : Dev nD,
      r.2.mem ((c.tc : Thread nD τ).loc main_v14)
        = shapeCast S64x577x768 (flat (V m c main_v0) (V m c main_v2) (V m c main_v12)) shapeCasts_S36928x768_S64x577x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v14 (Pipeline.mem_restRefs_of main_v14 (by decide) (by decide))).trans (W_result m c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c),
      ((h c).2 main_arg10 (Pipeline.mem_restRefs_of main_arg10 (by decide) (by decide))).trans (W_main_arg10 m c)⟩) (run_main m ρ)

end Cert.KernelIdeal.Run

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.IdealHostValues.lean ====
/-
  What the region's three input arrays hold when the region is entered, read at coordinates.  The flattened
  activations at row b·577 + s are the activations at (b, s, ·).  The weight array is the transpose of the weight
  argument (the change of float format is the identity on exact values): its entry from input channel `h` to output
  channel `o` is the argument's entry (o, h).  The table of vectors is the nine per-channel arguments, each laid as
  one row, stacked in order: its row `k` is argument k + 2.
-/
import proofs.«124724_j8117488190190_2_alg».proof.Proof.IdealAround
import proofs.«124724_j8117488190190_2_alg».proof.Proof.LibFlattenBroadcast
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValues

open Cert.KernelIdeal Cert.KernelIdeal.Gen Cert.KernelIdeal.Around
open Idealize.ShloMosaic Idealize.ShloMosaic.TcCoe Idealize.ShloMosaic.ValueIdx Idealize.SL.Sem

/-! ## A nine-operand host operation's result, each operand's contents at its own reference -/

theorem nary9_result {x0 x1 x2 x3 x4 x5 x6 x7 x8 y : Ref sig .tc}
    (f : ((k : Fin 9) → ((![x0, x1, x2, x3, x4, x5, x6, x7, x8] : Fin 9 → Ref sig .tc) k).ty.Contents (Elt Ideal)) → y.ty.Contents (Elt Ideal)) (hxs hy)
    (F : Valuation τ sig (Elt Ideal)) :
    (StableHlo.nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [StableHlo.nary_result]; congr 1; funext k; fin_cases k <;> rfl

/-- The same, stated for one rewriting pass. -/
theorem nary9_result' {x0 x1 x2 x3 x4 x5 x6 x7 x8 y : Ref sig .tc}
    (f : ((k : Fin 9) → ((![x0, x1, x2, x3, x4, x5, x6, x7, x8] : Fin 9 → Ref sig .tc) k).ty.Contents (Elt Ideal)) → y.ty.Contents (Elt Ideal)) (hxs hy)
    (F : Valuation τ sig (Elt Ideal)) :
    (StableHlo.nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-! ## Nine rows stacked, read at a row -/

theorem stack_apply {α : Type} (u : Fin 9 → S1x768.Idx → α)
    (h : Shape.Concatenates ([(⟨S1x768, u 0⟩ : (s : Shape) × (s.Idx → α)), (⟨S1x768, u 1⟩ : (s : Shape) × (s.Idx → α)), (⟨S1x768, u 2⟩ : (s : Shape) × (s.Idx → α)), (⟨S1x768, u 3⟩ : (s : Shape) × (s.Idx → α)), (⟨S1x768, u 4⟩ : (s : Shape) × (s.Idx → α)), (⟨S1x768, u 5⟩ : (s : Shape) × (s.Idx → α)), (⟨S1x768, u 6⟩ : (s : Shape) × (s.Idx → α)), (⟨S1x768, u 7⟩ : (s : Shape) × (s.Idx → α)), (⟨S1x768, u 8⟩ : (s : Shape) × (s.Idx → α))].map (·.1)) S9x768 0)
    (k : Fin 9) (o : Fin 768) :
    concatenate S9x768 0 [⟨S1x768, u 0⟩, ⟨S1x768, u 1⟩, ⟨S1x768, u 2⟩, ⟨S1x768, u 3⟩, ⟨S1x768, u 4⟩, ⟨S1x768, u 5⟩, ⟨S1x768, u 6⟩, ⟨S1x768, u 7⟩, ⟨S1x768, u 8⟩] h (ix2 k o) = u k (ix2 (0 : Fin 1) o) := by
  match k with
  | ⟨0, _⟩ => exact concatenate_apply_piece (0 : Fin S9x768.rank) _ h _ 0 (by simp) S1x768 (u 0) rfl rfl 0 rfl (ix2 (0 : Fin 1) o) (fun b hb => by match b with | ⟨0, _⟩ => exact absurd rfl hb | ⟨1, _⟩ => rfl) rfl
  | ⟨1, _⟩ => exact concatenate_apply_piece (0 : Fin S9x768.rank) _ h _ 1 (by simp) S1x768 (u 1) rfl rfl 1 rfl (ix2 (0 : Fin 1) o) (fun b hb => by match b with | ⟨0, _⟩ => exact absurd rfl hb | ⟨1, _⟩ => rfl) rfl
  | ⟨2, _⟩ => exact concatenate_apply_piece (0 : Fin S9x768.rank) _ h _ 2 (by simp) S1x768 (u 2) rfl rfl 2 rfl (ix2 (0 : Fin 1) o) (fun b hb => by match b with | ⟨0, _⟩ => exact absurd rfl hb | ⟨1, _⟩ => rfl) rfl
  | ⟨3, _⟩ => exact concatenate_apply_piece (0 : Fin S9x768.rank) _ h _ 3 (by simp) S1x768 (u 3) rfl rfl 3 rfl (ix2 (0 : Fin 1) o) (fun b hb => by match b with | ⟨0, _⟩ => exact absurd rfl hb | ⟨1, _⟩ => rfl) rfl
  | ⟨4, _⟩ => exact concatenate_apply_piece (0 : Fin S9x768.rank) _ h _ 4 (by simp) S1x768 (u 4) rfl rfl 4 rfl (ix2 (0 : Fin 1) o) (fun b hb => by match b with | ⟨0, _⟩ => exact absurd rfl hb | ⟨1, _⟩ => rfl) rfl
  | ⟨5, _⟩ => exact concatenate_apply_piece (0 : Fin S9x768.rank) _ h _ 5 (by simp) S1x768 (u 5) rfl rfl 5 rfl (ix2 (0 : Fin 1) o) (fun b hb => by match b with | ⟨0, _⟩ => exact absurd rfl hb | ⟨1, _⟩ => rfl) rfl
  | ⟨6, _⟩ => exact concatenate_apply_piece (0 : Fin S9x768.rank) _ h _ 6 (by simp) S1x768 (u 6) rfl rfl 6 rfl (ix2 (0 : Fin 1) o) (fun b hb => by match b with | ⟨0, _⟩ => exact absurd rfl hb | ⟨1, _⟩ => rfl) rfl
  | ⟨7, _⟩ => exact concatenate_apply_piece (0 : Fin S9x768.rank) _ h _ 7 (by simp) S1x768 (u 7) rfl rfl 7 rfl (ix2 (0 : Fin 1) o) (fun b hb => by match b with | ⟨0, _⟩ => exact absurd rfl hb | ⟨1, _⟩ => rfl) rfl
  | ⟨8, _⟩ => exact concatenate_apply_piece (0 : Fin S9x768.rank) _ h _ 8 (by simp) S1x768 (u 8) rfl rfl 8 rfl (ix2 (0 : Fin 1) o) (fun b hb => by match b with | ⟨0, _⟩ => exact absurd rfl hb | ⟨1, _⟩ => rfl) rfl
  | ⟨n + 9, hn⟩ => exact absurd hn (by omega)

/-- A vector laid as one row reads, at (0, o), the vector at `o`. -/
theorem asRow_apply {α : Type} (v : S768.Idx → α) (o : Fin 768) :
    broadcastInDim S1x768 ![1] bcast_S768_S1x768_1 v (ix2 (0 : Fin 1) o) = v (ix1 o) :=
  broadcastInDim_apply _ bcast_S768_S1x768_1 v (ix2 (0 : Fin 1) o) (ix1 o) (fun a => match a with
    | ⟨0, _⟩ => by show o.val = if (768 : Nat) = 1 then 0 else o.val; rw [if_neg (by decide)])

variable (m : (ℓ : Loc nD τ sig) → Buf (Elt Ideal) ℓ)

/-! ## The three arrays as the region finds them -/

theorem V_acts (c : Dev nD) :
    (V m c main_v0 : S36928x768.Idx → EReal) = shapeCast S36928x768 (m ((c : Thread nD τ).loc main_arg0)) shapeCasts_S64x577x768_S36928x768 := by
  show StableHlo.after hostOps0 (fun b => m (c, b)) (Proc.devRef .tc main_v0) = _
  after_results
  all_goals rfl

theorem V_weight (c : Dev nD) :
    (V m c main_v2 : S768x768.Idx → EReal)
      = truncf (F := Ideal) .bf16 (transpose S768x768 [1, 0] (m ((c : Thread nD τ).loc main_arg1)) transposes_S768x768_S768x768_1_0) bitsLt_bf16_f32 := by
  show StableHlo.after hostOps0 (fun b => m (c, b)) (Proc.devRef .tc main_v2) = _
  after_results
  all_goals rfl

/-- The nine per-channel arguments, in the order they are stacked. -/
def argv (c : Dev nD) : Fin 9 → S768.Idx → EReal := fun k => match k with
  | ⟨0, _⟩ => m ((c : Thread nD τ).loc main_arg2)
  | ⟨1, _⟩ => m ((c : Thread nD τ).loc main_arg3)
  | ⟨2, _⟩ => m ((c : Thread nD τ).loc main_arg4)
  | ⟨3, _⟩ => m ((c : Thread nD τ).loc main_arg5)
  | ⟨4, _⟩ => m ((c : Thread nD τ).loc main_arg6)
  | ⟨5, _⟩ => m ((c : Thread nD τ).loc main_arg7)
  | ⟨6, _⟩ => m ((c : Thread nD τ).loc main_arg8)
  | ⟨7, _⟩ => m ((c : Thread nD τ).loc main_arg9)
  | ⟨8, _⟩ => m ((c : Thread nD τ).loc main_arg10)

theorem V_vecs (c : Dev nD) :
    (V m c main_v12 : S9x768.Idx → EReal)
      = concatenate S9x768 0 [⟨S1x768, broadcastInDim S1x768 ![1] bcast_S768_S1x768_1 (argv m c 0)⟩, ⟨S1x768, broadcastInDim S1x768 ![1] bcast_S768_S1x768_1 (argv m c 1)⟩, ⟨S1x768, broadcastInDim S1x768 ![1] bcast_S768_S1x768_1 (argv m c 2)⟩, ⟨S1x768, broadcastInDim S1x768 ![1] bcast_S768_S1x768_1 (argv m c 3)⟩, ⟨S1x768, broadcastInDim S1x768 ![1] bcast_S768_S1x768_1 (argv m c 4)⟩, ⟨S1x768, broadcastInDim S1x768 ![1] bcast_S768_S1x768_1 (argv m c 5)⟩, ⟨S1x768, broadcastInDim S1x768 ![1] bcast_S768_S1x768_1 (argv m c 6)⟩, ⟨S1x768, broadcastInDim S1x768 ![1] bcast_S768_S1x768_1 (argv m c 7)⟩, ⟨S1x768, broadcastInDim S1x768 ![1] bcast_S768_S1x768_1 (argv m c 8)⟩] concatenates_S1x768_S1x768_S1x768_S1x768_S1x768_S1x768_S1x768_S1x768_S1x768_S9x768_d0 := by
  show StableHlo.after hostOps0 (fun b => m (c, b)) (Proc.devRef .tc main_v12) = _
  simp (disch := decide) only [StableHlo.after_cons, StableHlo.after_nil, nary9_result', StableHlo.unary_result', StableHlo.reshape_result',
    StableHlo.unary_result_ne', StableHlo.reshape_result_ne']
  all_goals rfl

/-! ## Their entries -/

/-- Row b·577 + s of the flattened activations. -/
theorem acts_at (c : Dev nD) (b : Fin 64) (s : Fin 577) (h : Fin 768) (y : Fin 36928) (hy : y.val = b.val * 577 + s.val) :
    (V m c main_v0 : S36928x768.Idx → EReal) (ix2 y h) = m ((c : Thread nD τ).loc main_arg0) (ix3 b s h) := by
  rw [V_acts]
  exact Cert.LibFlattenBroadcast.shapeCast_abc_nc_apply _ _ b s h y hy

/-- The weight array from input channel `h` to output channel `o`. -/
theorem weight_at (c : Dev nD) (h o : Fin 768) :
    (V m c main_v2 : S768x768.Idx → EReal) (ix2 h o) = m ((c : Thread nD τ).loc main_arg1) (ix2 o h) := by
  rw [V_weight]
  exact transpose_ix2_apply _ _ h o

/-- Row `k` of the table of vectors. -/
theorem vecs_at (c : Dev nD) (k : Fin 9) (o : Fin 768) :
    (V m c main_v12 : S9x768.Idx → EReal) (ix2 k o) = argv m c k (ix1 o) := by
  rw [V_vecs]
  exact (stack_apply (fun k => broadcastInDim S1x768 ![1] bcast_S768_S1x768_1 (argv m c k)) _ k o).trans (asRow_apply _ o)

end Cert.KernelIdeal.HostValues

end
-- ==== Proof.RefAtEntry.lean ====
/-
  The reference, read at one entry, is the specification.  The reference works on the activations as [64, 577, 768]:
  entry (b, s, o) of its result is read back through its operations — the broadcasts of each per-channel vector over
  batch and position, the contraction with the weight over the input channel, the two sums over the channel axis kept
  as a trailing unit axis — to the row function of the specification applied to the 768 activations at (b, s, ·),
  with the weight's entry from input channel `h` to output channel `o` read at (o, h).
-/
import proofs.«124724_j8117488190190_2_alg».proof.Proof.Gen.ReferenceIdeal.Read
import proofs.«124724_j8117488190190_2_alg».proof.Proof.Spec
import Idealize.ShloMosaic.Lib.ValueIdx
import Idealize.ShloMosaic.PureOps.Ideal.Laws

set_option maxRecDepth 16384

noncomputable section

namespace Cert.ReferenceIdeal.AtEntry

open Cert.ReferenceIdeal Cert.ReferenceIdeal.Gen Cert.ReferenceIdeal.Read
open Idealize.ShloMosaic Idealize.ShloMosaic.ValueIdx Idealize.SL.Sem

/-! ## The reference's index maps at coordinates -/

theorem lidx3 (b : Fin 64) (s : Fin 577) (o k : Fin 768) : lidx_main_v3 (ix3 b s o) k = ix3 b s k :=
  funext fun a => Fin.ext (by match a with | ⟨0, _⟩ => rfl | ⟨1, _⟩ => rfl | ⟨2, _⟩ => rfl)
theorem ridx3 (b : Fin 64) (s : Fin 577) (o k : Fin 768) : ridx_main_v3 (ix3 b s o) k = ix2 o k :=
  funext fun a => Fin.ext (by match a with | ⟨0, _⟩ => rfl | ⟨1, _⟩ => rfl)
theorem chan0 (b : Fin 64) (s : Fin 577) (o : Fin 768) : idx_main_v0 (idx_main_v1 (ix3 b s o)) = ix1 o :=
  funext fun a => Fin.ext (by match a with | ⟨0, _⟩ => rfl)
theorem chan4 (b : Fin 64) (s : Fin 577) (o : Fin 768) : idx_main_v4 (idx_main_v5 (ix3 b s o)) = ix1 o :=
  funext fun a => Fin.ext (by match a with | ⟨0, _⟩ => rfl)
theorem chan25 (b : Fin 64) (s : Fin 577) (o : Fin 768) : idx_main_v25 (idx_main_v26 (ix3 b s o)) = ix1 o :=
  funext fun a => Fin.ext (by match a with | ⟨0, _⟩ => rfl)
theorem chan28 (b : Fin 64) (s : Fin 577) (o : Fin 768) : idx_main_v28 (idx_main_v29 (ix3 b s o)) = ix1 o :=
  funext fun a => Fin.ext (by match a with | ⟨0, _⟩ => rfl)
theorem chan32 (b : Fin 64) (s : Fin 577) (o : Fin 768) : idx_main_v32 (idx_main_v33 (ix3 b s o)) = ix1 o :=
  funext fun a => Fin.ext (by match a with | ⟨0, _⟩ => rfl)
theorem chan37 (b : Fin 64) (s : Fin 577) (o : Fin 768) : idx_main_v37 (idx_main_v38 (ix3 b s o)) = ix1 o :=
  funext fun a => Fin.ext (by match a with | ⟨0, _⟩ => rfl)
theorem chan41 (b : Fin 64) (s : Fin 577) (o : Fin 768) : idx_main_v41 (idx_main_v42 (ix3 b s o)) = ix1 o :=
  funext fun a => Fin.ext (by match a with | ⟨0, _⟩ => rfl)
theorem chan44 (b : Fin 64) (s : Fin 577) (o : Fin 768) : idx_main_v44 (idx_main_v45 (ix3 b s o)) = ix1 o :=
  funext fun a => Fin.ext (by match a with | ⟨0, _⟩ => rfl)
theorem chan47 (b : Fin 64) (s : Fin 577) (o : Fin 768) : idx_main_v47 (idx_main_v48 (ix3 b s o)) = ix1 o :=
  funext fun a => Fin.ext (by match a with | ⟨0, _⟩ => rfl)
theorem along7 (b : Fin 64) (s : Fin 577) (k : Fin 768) : idx_main_v7 (ix2 b s) k = ix3 b s k :=
  funext fun a => Fin.ext (by match a with | ⟨0, _⟩ => rfl | ⟨1, _⟩ => rfl | ⟨2, _⟩ => rfl)
theorem along14 (b : Fin 64) (s : Fin 577) (k : Fin 768) : idx_main_v14 (ix2 b s) k = ix3 b s k :=
  funext fun a => Fin.ext (by match a with | ⟨0, _⟩ => rfl | ⟨1, _⟩ => rfl | ⟨2, _⟩ => rfl)
theorem keep8 (b : Fin 64) (s : Fin 577) (u : Fin 1) : idx_main_v8 (ix3 b s u) = ix2 b s :=
  funext fun a => Fin.ext (by match a with | ⟨0, _⟩ => rfl | ⟨1, _⟩ => rfl)
theorem keep15 (b : Fin 64) (s : Fin 577) (u : Fin 1) : idx_main_v15 (ix3 b s u) = ix2 b s :=
  funext fun a => Fin.ext (by match a with | ⟨0, _⟩ => rfl | ⟨1, _⟩ => rfl)
theorem stat11 (b : Fin 64) (s : Fin 577) (o : Fin 768) : idx_main_v11 (ix3 b s o) = ix3 b s (0 : Fin 1) :=
  funext fun a => Fin.ext (by match a with | ⟨0, _⟩ => rfl | ⟨1, _⟩ => rfl | ⟨2, _⟩ => rfl)
theorem stat18 (b : Fin 64) (s : Fin 577) (o : Fin 768) : idx_main_v18 (ix3 b s o) = ix3 b s (0 : Fin 1) :=
  funext fun a => Fin.ext (by match a with | ⟨0, _⟩ => rfl | ⟨1, _⟩ => rfl | ⟨2, _⟩ => rfl)
theorem stat23 (b : Fin 64) (s : Fin 577) (o : Fin 768) : idx_main_v23 (ix3 b s o) = ix3 b s (0 : Fin 1) :=
  funext fun a => Fin.ext (by match a with | ⟨0, _⟩ => rfl | ⟨1, _⟩ => rfl | ⟨2, _⟩ => rfl)

/-! ## The stages -/

variable (x0 : (⟨S64x577x768, .f32⟩ : BufTy).Contents (Elt Ideal)) (x1 : (⟨S768x768, .f32⟩ : BufTy).Contents (Elt Ideal))
  (x2 x3 x4 x5 x6 x7 x8 x9 x10 : (⟨S768, .f32⟩ : BufTy).Contents (Elt Ideal))

/-- The specification's row arguments from the reference's arrays: the activations at (b, s, ·), the weight read
    from input channel to output channel, a per-channel vector. -/
abbrev acts (b : Fin 64) (s : Fin 577) : Fin 768 → EReal := fun h => x0 (ix3 b s h)
abbrev weight : Fin 768 → Fin 768 → EReal := fun h o => x1 (ix2 o h)
abbrev chanv (v : (⟨S768, .f32⟩ : BufTy).Contents (Elt Ideal)) : Fin 768 → EReal := fun o => v (ix1 o)

/-- The linear layer at (b, s, o). -/
theorem dense_at (b : Fin 64) (s : Fin 577) (o : Fin 768) :
    val_main_v6 (F := Ideal) x0 x1 x2 x3 (ix3 b s o) = Spec.dense (acts x0 b s) (chanv x3) (chanv x2) (weight x1) o := by
  rw [val_main_v6_apply, val_main_v3_apply, val_main_v5_apply, val_main_v4_apply, chan4]
  unfold Spec.dense
  refine congrArg (· + _) (Finset.sum_congr rfl fun k _ => ?_)
  rw [lidx3, ridx3, val_main_v2_apply, val_main_v1_apply, val_main_v0_apply, chan0]
  rfl

/-- The mean over the channels, kept with a trailing unit axis. -/
theorem mean_at (b : Fin 64) (s : Fin 577) :
    val_main_v10 (F := Ideal) x0 x1 x2 x3 (ix3 b s (0 : Fin 1)) = Spec.mean (Spec.dense (acts x0 b s) (chanv x3) (chanv x2) (weight x1)) := by
  rw [val_main_v10_apply, val_main_v8_apply, keep8, val_main_v7_apply]
  unfold Spec.mean
  refine congrArg₂ Ideal.div ?_ rfl
  show Ideal.ofBits .f32 0x00000000#32 + _ = _
  rw [Ideal.ofBits_zero_f32, zero_add]
  exact Finset.sum_congr rfl fun k _ => by rw [along7]; exact dense_at x0 x1 x2 x3 b s k

/-- The centred linear layer, as the variance reads it and as the result reads it. -/
theorem centred_at (b : Fin 64) (s : Fin 577) (o : Fin 768) :
    val_main_v12 (F := Ideal) x0 x1 x2 x3 (ix3 b s o) = Spec.centred (Spec.dense (acts x0 b s) (chanv x3) (chanv x2) (weight x1)) o := by
  rw [val_main_v12_apply, val_main_v11_apply, stat11, dense_at, mean_at]
  rfl
theorem centred_at' (b : Fin 64) (s : Fin 577) (o : Fin 768) :
    val_main_v19 (F := Ideal) x0 x1 x2 x3 (ix3 b s o) = Spec.centred (Spec.dense (acts x0 b s) (chanv x3) (chanv x2) (weight x1)) o := by
  rw [val_main_v19_apply, val_main_v18_apply, stat18, dense_at, mean_at]
  rfl

/-- The variance plus the small constant, kept with a trailing unit axis. -/
theorem spread_at (b : Fin 64) (s : Fin 577) :
    val_main_v21 (F := Ideal) x0 x1 x2 x3 (ix3 b s (0 : Fin 1))
      = Spec.mean (fun o => Spec.centred (Spec.dense (acts x0 b s) (chanv x3) (chanv x2) (weight x1)) o * Spec.centred (Spec.dense (acts x0 b s) (chanv x3) (chanv x2) (weight x1)) o) + Spec.small := by
  rw [val_main_v21_apply, val_main_v17_apply, val_main_v15_apply, keep15, val_main_v14_apply]
  unfold Spec.mean
  refine congrArg₂ (· + ·) (congrArg₂ Ideal.div ?_ rfl) rfl
  show Ideal.ofBits .f32 0x00000000#32 + _ = _
  rw [Ideal.ofBits_zero_f32, zero_add]
  refine Finset.sum_congr rfl fun k _ => ?_
  rw [along14, val_main_v13_apply, centred_at]
  rfl

/-- The reference's result at (b, s, o) is the specification's row function of the activations at (b, s, ·). -/
theorem result_at (b : Fin 64) (s : Fin 577) (o : Fin 768) :
    val_main_v49 (F := Ideal) x0 x1 x2 x3 x4 x5 x6 x7 x8 x9 x10 (ix3 b s o)
      = Spec.rowOut (acts x0 b s) (weight x1) (chanv x2) (chanv x3) (chanv x4) (chanv x5) (chanv x6) (chanv x7) (chanv x8) (chanv x9) (chanv x10) o := by
  simp only [val_main_v49_apply, val_main_v48_apply, val_main_v47_apply, val_main_v46_apply, val_main_v45_apply, val_main_v44_apply,
    val_main_v43_apply, val_main_v42_apply, val_main_v41_apply, val_main_v40_apply, val_main_v39_apply, val_main_v38_apply, val_main_v37_apply,
    val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_v23_apply,
    val_main_v22_apply, val_main_cst_4_apply, stat23, chan25, chan28, chan32, chan37, chan41, chan44, chan47, centred_at', spread_at]
  rfl

end Cert.ReferenceIdeal.AtEntry

end
-- ==== Proof.Bridge.lean ====
/-
  The two programs compute one function.  Entry (b, s, o) of the idealized kernel's result is entry (b·577 + s, o) of
  the region's result array, which is the specification's row function of row b·577 + s of the flattened activations —
  the activations at (b, s, ·) —, the transposed weight and the stacked vectors; entry (b, s, o) of the reference's
  result is the same row function of the same arguments.
-/
import proofs.«124724_j8117488190190_2_alg».proof.Proof.IdealRun
import proofs.«124724_j8117488190190_2_alg».proof.Proof.IdealHostValues
import proofs.«124724_j8117488190190_2_alg».proof.Proof.RefAtEntry

set_option maxRecDepth 16384

noncomputable section

namespace Cert.Bridge

open Idealize.ShloMosaic Idealize.ShloMosaic.TcCoe Idealize.ShloMosaic.ValueIdx Idealize.SL.Sem
open Cert.KernelIdeal.Around Cert.KernelIdeal.TileAt Cert.KernelIdeal.Run Cert.KernelIdeal.HostValues
open Cert.ReferenceIdeal.AtEntry

variable (m : (ℓ : Loc Cert.KernelIdeal.nD Cert.KernelIdeal.τ Cert.KernelIdeal.sig) → Buf (Elt Ideal) ℓ)

/-- The kernel's result, entry by entry, is the reference's composed term of the same argument arrays. -/
theorem result_eq (c : Dev Cert.KernelIdeal.nD) :
    shapeCast Cert.KernelIdeal.S64x577x768
        (flat (V m c Cert.KernelIdeal.main_v0) (V m c Cert.KernelIdeal.main_v2) (V m c Cert.KernelIdeal.main_v12))
        Cert.KernelIdeal.Facts₀.shapeCasts_S36928x768_S64x577x768
      = Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  funext i
  obtain ⟨b, s, o, rfl⟩ : ∃ (b : Fin 64) (s : Fin 577) (o : Fin 768), i = ix3 b s o := ⟨i 0, i 1, i 2, eq_ix3 i⟩
  have hb := b.isLt
  have hs := s.isLt
  have hy : b.val * 577 + s.val < 36928 := by omega
  rw [result_at, Cert.LibFlattenBroadcast.shapeCast_nc_abc_apply _ _ b s o (⟨b.val * 577 + s.val, hy⟩ : Fin 36928) rfl]
  have ea : (fun h => V m c Cert.KernelIdeal.main_v0 (ix2 (⟨b.val * 577 + s.val, hy⟩ : Fin 36928) h))
      = acts (m ((c.tc : Thread Cert.KernelIdeal.nD Cert.KernelIdeal.τ).loc Cert.KernelIdeal.main_arg0)) b s :=
    funext fun h => acts_at m c b s h _ rfl
  have ew : wt (V m c Cert.KernelIdeal.main_v2) = weight (m ((c.tc : Thread Cert.KernelIdeal.nD Cert.KernelIdeal.τ).loc Cert.KernelIdeal.main_arg1)) :=
    funext fun h => funext fun o => weight_at m c h o
  have ev : ∀ k : Fin 9, vec (V m c Cert.KernelIdeal.main_v12) k = chanv (argv m c k) := fun k => funext fun o => vecs_at m c k o
  show Spec.rowOut (fun h => V m c Cert.KernelIdeal.main_v0 (ix2 (⟨b.val * 577 + s.val, hy⟩ : Fin 36928) h)) (wt (V m c Cert.KernelIdeal.main_v2))
      (vec (V m c Cert.KernelIdeal.main_v12) 0) (vec (V m c Cert.KernelIdeal.main_v12) 1) (vec (V m c Cert.KernelIdeal.main_v12) 2)
      (vec (V m c Cert.KernelIdeal.main_v12) 3) (vec (V m c Cert.KernelIdeal.main_v12) 4) (vec (V m c Cert.KernelIdeal.main_v12) 5)
      (vec (V m c Cert.KernelIdeal.main_v12) 6) (vec (V m c Cert.KernelIdeal.main_v12) 7) (vec (V m c Cert.KernelIdeal.main_v12) 8) o = _
  rw [ea, ew, ev 0, ev 1, ev 2, ev 3, ev 4, ev 5, ev 6, ev 7, ev 8]
  rfl

end Cert.Bridge

end
-- ==== Proof.lean ====
/-
  The certificate of a fused transformer output block against its plain reference.  Both take activations
  [64, 577, 768], a weight [768, 768] and nine per-channel vectors; both shift the activations, apply the linear layer,
  normalise each row of 768 outputs to zero mean and unit variance (up to a small constant under the square root),
  scale and shift per channel, add the activations back, apply a two-slope unit and a last per-channel affine map.
  The kernel does so on the activations flattened to [36928, 768], 1024 rows at a time over 37 grid points, the last
  tile overhanging the array by 960 rows; the reference on the whole array.

  The five claims.  The frame of the kernel as printed: the body is three whole loads and a whole store, whatever the
  buffers hold, so the run terminates and no argument is written.  The frame of the idealized kernel and the equality
  of results: on exact values each stored entry is a function of its own row only, so the rows past the array's end
  never matter; the 37 blocks cover the array; and the function of a row is, operation by operation, the reference's.
  The reference's frame is its run.  The idealization rewrote nothing.
-/
import proofs.«124724_j8117488190190_2_alg».proof.Defs
import proofs.«124724_j8117488190190_2_alg».proof.Proof.Gen.Kernel
import proofs.«124724_j8117488190190_2_alg».proof.Proof.Gen.Kernel.Skeleton
import proofs.«124724_j8117488190190_2_alg».proof.Proof.Gen.Kernel.Launch
import proofs.«124724_j8117488190190_2_alg».proof.Proof.Gen.Kernel.Points
import proofs.«124724_j8117488190190_2_alg».proof.Proof.Gen.KernelIdeal
import proofs.«124724_j8117488190190_2_alg».proof.Proof.Gen.KernelIdeal.Skeleton
import proofs.«124724_j8117488190190_2_alg».proof.Proof.Gen.KernelIdeal.Launch
import proofs.«124724_j8117488190190_2_alg».proof.Proof.Gen.KernelIdeal.Points
import proofs.«124724_j8117488190190_2_alg».proof.Proof.Gen.ReferenceIdeal
import proofs.«124724_j8117488190190_2_alg».proof.Proof.Gen.Pre_finite_inputs
import proofs.«124724_j8117488190190_2_alg».proof.Proof.Gen.ReferenceIdeal.Run
import proofs.«124724_j8117488190190_2_alg».proof.Proof.Gen.ReferenceIdeal.Read
import proofs.«124724_j8117488190190_2_alg».proof.Proof.KernelFrame
import proofs.«124724_j8117488190190_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_kernel : Cert.frame_Kernel (hKernel := Cert.Kernel.Gen.facts) (hPre_finite_inputs := Cert.Pre_finite_inputs.Gen.facts) :=
  fun m ρ _ => Cert.Kernel.RFrame.frame m ρ

/-- The idealized kernel runs and leaves its arguments: its value run with the result dropped. -/
theorem frame_ideal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Run.run m ρ)

/-- The reference runs and leaves its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same result: the kernel's run ends at the
    whole-array function of its arguments, the reference's at its composed term of its own, and the two are one
    function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
